-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x64, .bf16⟩
  | .hbm, ⟨5, _⟩ => ⟨S32x2048x64, .bf16⟩
  | .hbm, ⟨6, _⟩ => ⟨S32x2048x64, .bf16⟩
  | .hbm, ⟨7, _⟩ => ⟨S32x2048x2048, .i32⟩
  | .hbm, ⟨8, _⟩ => ⟨S32x2048x64, .f32⟩
  | .hbm, ⟨9, _⟩ => ⟨S32x2048x2048, .f32⟩
  | .local _ .vmem, ⟨0, _⟩ => ⟨S1x256x64, .bf16⟩
  | .local _ .vmem, ⟨1, _⟩ => ⟨S1x256x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  natLt_1_32 : 1 < 32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .bf16 = 32 ∨ (Rect.block (s := S32x2048x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x2048x2048.size a
  hwx0_3 : ∀ i : grid0.Coords, EltTy.bits .i32 = 32 ∨ (Rect.block (s := S32x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S_, .f32⟩
  | .hbm, ⟨10, _⟩ => ⟨S32x2048x2048, .f32⟩
  | .hbm, ⟨11, _⟩ => ⟨S32x2048x2048, .f32⟩
  | .hbm, ⟨12, _⟩ => ⟨S_, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048x1, .f32⟩
  | .hbm, ⟨18, _⟩ => ⟨S32x2048x2048, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .f32⟩
  | .hbm, ⟨26, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.AttnSpec.lean ====
/-
  Scaled dot-product attention with a boolean mask, one query row at a time, over the extended reals.

  For one query row `qr` (64 features), the keys `km` (2048 rows of 64 features) and the row's mask bits `mr`:
    score  c = fill                                  where the mask bit is set,
               (Σ_d qr d · km c d) / 8               elsewhere;
    softmax of a row `s`:  exp (s c − max s) / Σ_n exp (s n − max s),  the maximum folded from −∞;
    the output row:  Σ_n (softmax s) n · vm n d.
  `attn` and `out` are these rows laid over the [32, 2048, 2048] and [32, 2048, 64] arrays: batch `b`, query row `r`.

  The one algebraic law of this certificate is here too (`kernelScoreRow_eq`): selecting on "the widened mask word is 0"
  with the branches swapped is selecting on the mask bit, and a product with the dyadic 1/8 is the quotient by 8 on every
  extended real.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The query / key / value arrays' shape and the attention matrix's. -/
abbrev SQ : Shape := ⟨3, ![32, 2048, 64]⟩
abbrev SA : Shape := ⟨3, ![32, 2048, 2048]⟩

/-- A row of masked, scaled scores: the fill value where the mask bit is set, the scaled dot product elsewhere. -/
def scoreRow (qr : Fin 64 → EReal) (km : Fin 2048 → Fin 64 → EReal) (mr : Fin 2048 → BitVec 1) (c : Fin 2048) : EReal :=
  Scalar.select (mr c) (Ideal.ofBits .f32 0xD01502F9#32)
    (Ideal.div (∑ d : Fin 64, qr d * km c d) (Ideal.ofBits .f32 0x41000000#32))

/-- The same row as a kernel that carries the mask as 32-bit words computes it: keep the product with 1/8 where the word
    is 0, the fill value elsewhere. -/
def kernelScoreRow (qr : Fin 64 → EReal) (km : Fin 2048 → Fin 64 → EReal) (wr : Fin 2048 → BitVec 32) (c : Fin 2048) : EReal :=
  Scalar.select (IntOp.cmpi .eq (wr c) 0#32) ((∑ d : Fin 64, qr d * km c d) * Ideal.ofBits .f32 0x3E000000#32)
    (Ideal.ofBits .f32 0xD01502F9#32)

/-- The softmax of a row, the maximum folded from −∞. -/
def softmaxRow (s : Fin 2048 → EReal) (c : Fin 2048) : EReal :=
  Ideal.div (Ideal.exp (s c - (Finset.univ : Finset (Fin 2048)).fold max (⊥ : EReal) s))
    (∑ n : Fin 2048, Ideal.exp (s n - (Finset.univ : Finset (Fin 2048)).fold max (⊥ : EReal) s))

/-- A row of weights times the value matrix. -/
def rowTimes (a : Fin 2048 → EReal) (vm : Fin 2048 → Fin 64 → EReal) (d : Fin 64) : EReal :=
  ∑ n : Fin 2048, a n * vm n d

/-- The attention matrix: entry (b, r, c) is the softmax of query row (b, r)'s scores, at key c. -/
def attn (q k : SQ.Idx → EReal) (mk : SA.Idx → BitVec 1) : SA.Idx → EReal := fun i =>
  softmaxRow (scoreRow (fun d => q (ix3 (i 0 : Fin 32) (i 1 : Fin 2048) d)) (fun n d => k (ix3 (i 0 : Fin 32) n d))
    (fun n => mk (ix3 (i 0 : Fin 32) (i 1 : Fin 2048) n))) (i 2 : Fin 2048)

/-- The output: entry (b, r, d) is query row (b, r)'s attention weights times column d of batch b's values. -/
def out (q k v : SQ.Idx → EReal) (mk : SA.Idx → BitVec 1) : SQ.Idx → EReal := fun i =>
  rowTimes (softmaxRow (scoreRow (fun d => q (ix3 (i 0 : Fin 32) (i 1 : Fin 2048) d)) (fun n d => k (ix3 (i 0 : Fin 32) n d))
    (fun n => mk (ix3 (i 0 : Fin 32) (i 1 : Fin 2048) n)))) (fun n d => v (ix3 (i 0 : Fin 32) n d)) (i 2 : Fin 64)

/-- The f32 pattern 0x41000000 is the real 8. -/
theorem ofBits_eight : Ideal.ofBits .f32 0x41000000#32 = ((8 : ℝ) : EReal) := by
  simp [Ideal.ofBits, Ideal.ieee, -EReal.coe_mul]; norm_num

/-- The f32 pattern 0x3E000000 is the real 1/8. -/
theorem ofBits_eighth : Ideal.ofBits .f32 0x3E000000#32 = ((1 / 8 : ℝ) : EReal) := by
  simp [Ideal.ofBits, Ideal.ieee, -EReal.coe_mul]; norm_num

/-- On every extended real the product with 1/8 is the quotient by 8. -/
theorem mul_eighth_eq_div_eight (x : EReal) :
    x * Ideal.ofBits .f32 0x3E000000#32 = Ideal.div x (Ideal.ofBits .f32 0x41000000#32) := by
  rw [ofBits_eight, ofBits_eighth, Ideal.div_coe (by norm_num : (8 : ℝ) ≠ 0)]

/-- A mask bit widened to 32 bits is the word 0 exactly when the bit is not set. -/
theorem select_widened {α : Type} (b : BitVec 1) (x y : α) :
    Scalar.select (IntOp.cmpi .eq (b.setWidth 32) 0#32) x y = Scalar.select b y x := by
  rcases BitVec.eq_zero_or_eq_one b with h | h <;> subst h <;> rfl

/-- The kernel's score row over the widened mask bits is the score row. -/
theorem kernelScoreRow_eq (qr : Fin 64 → EReal) (km : Fin 2048 → Fin 64 → EReal) (mr : Fin 2048 → BitVec 1) :
    kernelScoreRow qr km (fun n => (mr n).setWidth 32) = scoreRow qr km mr := by
  funext c
  unfold kernelScoreRow scoreRow
  rw [select_widened, mul_eighth_eq_div_eight]

end Cert.AttnSpec

end
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.KernelPoint.lean ====
/-
  What the kernel's body computes at one grid point, read at an index: from a block of 256 query rows, the batch's 2048
  key rows and 2048 value rows, and the block's 256 × 2048 mask words, the body's attention block at (p, n) is the
  softmax of query row p's score row at key n, and its output block at (p, d) is that row of weights times column d of
  the values.

  The body's arithmetic is the composition of two array-level steps: the block of masked, scaled scores
  (`blockScores`: a product with the keys contracted over the 64 features, times 1/8, the fill value where the mask
  word is not 0) and the softmax along the lanes (`blockSoftmax`: the lane maximum from −∞, kept as a column and laid
  back across the lanes, subtracted; the exponential; the lane sum, kept and laid back the same way; the quotient).
  Each is read at (p, n) through its layout steps: a [1, a, b] block recast as [a, b], a vector recast as a column, a
  column broadcast across the lanes, a lane reduction as a fold or a sum over the lane coordinate, a matrix product as
  the sum over the contracted coordinate.
-/
import proofs.«162354_j1331439862428_2_alg».proof.Proof.Gen.KernelIdeal.Skeleton
import proofs.«162354_j1331439862428_2_alg».proof.Proof.AttnSpec
import proofs.«162354_j1331439862428_2_alg».proof.Proof.LibAxisReads
import proofs.«162354_j1331439862428_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx
open Cert.AttnSpec

/-! ## The two matrix products, as sums over the contracted coordinate -/

/-- In the scores' product the left operand's row is the output's row, -/
theorem scoreLhs_0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
/-- its column the contracted coordinate; -/
theorem scoreLhs_1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q
/-- the right operand's row is the output's column, -/
theorem scoreRhs_0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
/-- its column the contracted coordinate. -/
theorem scoreRhs_1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q

/-- Queries times keys, both contracted on their features: entry (p, n) is Σ_d l(p, d) · r(n, d). -/
theorem scoreProduct_apply (l : FVec Ideal S256x64 .bf16) (r : FVec Ideal S2048x64 .bf16) (p : Fin 256) (n : Fin 2048) :
    matmul dot_S256x64_S2048x64_S256x2048_1_1_0_0_n_n none l r (constant S256x2048 .f32 0x00000000#32) (ix2 p n)
      = ∑ d : Fin 64, l (ix2 p d) * r (ix2 n d) := by
  refine (Ideal.matmul_constant_zero_apply dot_S256x64_S2048x64_S256x2048_1_1_0_0_n_n none l r (ix2 p n)).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 p n) ((contrEquiv1 dot_S256x64_S2048x64_S256x2048_1_1_0_0_n_n 64 rfl rfl).symm k) = ix2 p k := funext fun a => Fin.ext (by
    match a with
    | ⟨0, _⟩ => exact scoreLhs_0 _ _
    | ⟨1, _⟩ => exact (scoreLhs_1 _ _).trans hk)
  have er : dot_S256x64_S2048x64_S256x2048_1_1_0_0_n_n.rhsIdx (ix2 p n) ((contrEquiv1 dot_S256x64_S2048x64_S256x2048_1_1_0_0_n_n 64 rfl rfl).symm k) = ix2 n k := funext fun a => Fin.ext (by
    match a with
    | ⟨0, _⟩ => exact scoreRhs_0 _ _
    | ⟨1, _⟩ => exact (scoreRhs_1 _ _).trans hk)
  rw [el, er]

/-- In the weights' product the left operand's row is the output's row, -/
theorem weightLhs_0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
/-- its column the contracted coordinate; -/
theorem weightLhs_1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q
/-- the right operand's row is the contracted coordinate, -/
theorem weightRhs_0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q
/-- its column the output's column. -/
theorem weightRhs_1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights times values, contracted over the 2048 keys: entry (p, d) is Σ_n l(p, n) · r(n, d). -/
theorem weightProduct_apply (l : FVec Ideal S256x2048 .bf16) (r : FVec Ideal S2048x64 .bf16) (p : Fin 256) (d : Fin 64) :
    matmul dot_S256x2048_S2048x64_S256x64_1_0_0_1_n_n none l r (constant S256x64 .f32 0x00000000#32) (ix2 p d)
      = ∑ n : Fin 2048, l (ix2 p n) * r (ix2 n d) := by
  refine (Ideal.matmul_constant_zero_apply dot_S256x2048_S2048x64_S256x64_1_0_0_1_n_n none l r (ix2 p d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 p d) ((contrEquiv1 dot_S256x2048_S2048x64_S256x64_1_0_0_1_n_n 2048 rfl rfl).symm k) = ix2 p k := funext fun a => Fin.ext (by
    match a with
    | ⟨0, _⟩ => exact weightLhs_0 _ _
    | ⟨1, _⟩ => exact (weightLhs_1 _ _).trans hk)
  have er : dot_S256x2048_S2048x64_S256x64_1_0_0_1_n_n.rhsIdx (ix2 p d) ((contrEquiv1 dot_S256x2048_S2048x64_S256x64_1_0_0_1_n_n 2048 rfl rfl).symm k) = ix2 k d := funext fun a => Fin.ext (by
    match a with
    | ⟨0, _⟩ => exact (weightRhs_0 _ _).trans hk
    | ⟨1, _⟩ => exact weightRhs_1 _ _)
  rw [el, er]

/-! ## The block of masked, scaled scores -/

/-- The masked, scaled scores of a block: queries times keys, times 1/8, kept where the mask word is 0, the fill
    value elsewhere. -/
def blockScores (x0 : Vec Ideal S1x256x64 .bf16) (x1 : Vec Ideal S1x2048x64 .bf16) (x3 : Vec Ideal S1x256x2048 .i32) :
    FVec Ideal S256x2048 .f32 :=
  select (cmpi .eq (shapeCast S256x2048 x3 shapeCasts_S1x256x2048_S256x2048 : IVec S256x2048 32) (broadcast S256x2048 0#32))
    (mulf (matmul dot_S256x64_S2048x64_S256x2048_1_1_0_0_n_n none (shapeCast S256x64 x0 shapeCasts_S1x256x64_S256x64 : FVec Ideal S256x64 .bf16)
        (shapeCast S2048x64 x1 shapeCasts_S1x2048x64_S2048x64 : FVec Ideal S2048x64 .bf16) (constant S256x2048 .f32 0x00000000#32))
      (broadcast S256x2048 (Scalar.ofBits (F := Ideal) .f32 0x3E000000#32)))
    (broadcast S256x2048 (Scalar.ofBits (F := Ideal) .f32 0xD01502F9#32))

/-- A block's score at (p, n) is query row p's score row at key n, over the mask words. -/
theorem blockScores_apply (x0 : Vec Ideal S1x256x64 .bf16) (x1 : Vec Ideal S1x2048x64 .bf16) (x3 : Vec Ideal S1x256x2048 .i32)
    (p : Fin 256) (n : Fin 2048) :
    blockScores x0 x1 x3 (ix2 p n)
      = kernelScoreRow (fun d => x0 (ix3 (0 : Fin 1) p d)) (fun n' d => x1 (ix3 (0 : Fin 1) n' d))
          (fun n' => x3 (ix3 (0 : Fin 1) p n')) n := by
  have hm : (shapeCast S256x2048 x3 shapeCasts_S1x256x2048_S256x2048 : IVec S256x2048 32) (ix2 p n) = x3 (ix3 (0 : Fin 1) p n) :=
    shapeCast_1ab_ab_apply x3 shapeCasts_S1x256x2048_S256x2048 p n
  have hq : ∀ d : Fin 64, (shapeCast S256x64 x0 shapeCasts_S1x256x64_S256x64 : FVec Ideal S256x64 .bf16) (ix2 p d) = x0 (ix3 (0 : Fin 1) p d) :=
    fun d => shapeCast_1ab_ab_apply x0 shapeCasts_S1x256x64_S256x64 p d
  have hk : ∀ d : Fin 64, (shapeCast S2048x64 x1 shapeCasts_S1x2048x64_S2048x64 : FVec Ideal S2048x64 .bf16) (ix2 n d) = x1 (ix3 (0 : Fin 1) n d) :=
    fun d => shapeCast_1ab_ab_apply x1 shapeCasts_S1x2048x64_S2048x64 n d
  show Scalar.select (IntOp.cmpi .eq ((shapeCast S256x2048 x3 shapeCasts_S1x256x2048_S256x2048 : IVec S256x2048 32) (ix2 p n)) 0#32)
      (matmul dot_S256x64_S2048x64_S256x2048_1_1_0_0_n_n none (shapeCast S256x64 x0 shapeCasts_S1x256x64_S256x64 : FVec Ideal S256x64 .bf16)
        (shapeCast S2048x64 x1 shapeCasts_S1x2048x64_S2048x64 : FVec Ideal S2048x64 .bf16) (constant S256x2048 .f32 0x00000000#32) (ix2 p n)
        * Ideal.ofBits .f32 0x3E000000#32)
      (Ideal.ofBits .f32 0xD01502F9#32) = _
  rw [hm, scoreProduct_apply]
  unfold kernelScoreRow
  simp only [hq, hk]

/-! ## The softmax along the lanes of a block -/

/-- Each row's maximum from −∞, laid back across the lanes. -/
def blockRowMax (S : FVec Ideal S256x2048 .f32) : FVec Ideal S256x2048 .f32 :=
  broadcastTo S256x2048 (shapeCast S256x1 (multiReduction .maximumf [1] S256 S 0xFF800000#32 reduces_S256x2048_S256 (.inl rfl) rfl)
    shapeCasts_S256_S256x1) broadcasts_S256x1_S256x2048

/-- The exponential of each score less its row's maximum. -/
def blockExp (S : FVec Ideal S256x2048 .f32) : FVec Ideal S256x2048 .f32 := exp (subf S (blockRowMax S))

/-- Each row's sum of exponentials, laid back across the lanes. -/
def blockDenom (S : FVec Ideal S256x2048 .f32) : FVec Ideal S256x2048 .f32 :=
  broadcastTo S256x2048 (shapeCast S256x1 (multiReduction .add [1] S256 (blockExp S) 0x00000000#32 reduces_S256x2048_S256 (.inl rfl) rfl)
    shapeCasts_S256_S256x1) broadcasts_S256x1_S256x2048

/-- The softmax along the lanes. -/
def blockSoftmax (S : FVec Ideal S256x2048 .f32) : FVec Ideal S256x2048 .f32 := divf (blockExp S) (blockDenom S)

theorem blockRowMax_apply (S : FVec Ideal S256x2048 .f32) (p : Fin 256) (n : Fin 2048) :
    blockRowMax S (ix2 p n) = (Finset.univ : Finset (Fin 2048)).fold max (⊥ : EReal) (fun n' => S (ix2 p n')) :=
  (LibAxisReads.broadcastTo_a1_ab_apply _ broadcasts_S256x1_S256x2048 p n).trans
    ((LibKeepdims.shapeCast_a_a1_apply _ shapeCasts_S256_S256x1 p (0 : Fin 1)).trans
      (LibAxisReads.rowMax_apply S reduces_S256x2048_S256 (.inl rfl) rfl p))

theorem blockExp_apply (S : FVec Ideal S256x2048 .f32) (p : Fin 256) (n : Fin 2048) :
    blockExp S (ix2 p n)
      = Ideal.exp (S (ix2 p n) - (Finset.univ : Finset (Fin 2048)).fold max (⊥ : EReal) (fun n' => S (ix2 p n'))) := by
  show Ideal.exp (S (ix2 p n) - blockRowMax S (ix2 p n)) = _
  rw [blockRowMax_apply]

theorem blockDenom_apply (S : FVec Ideal S256x2048 .f32) (p : Fin 256) (n : Fin 2048) :
    blockDenom S (ix2 p n) = ∑ n' : Fin 2048, blockExp S (ix2 p n') :=
  (LibAxisReads.broadcastTo_a1_ab_apply _ broadcasts_S256x1_S256x2048 p n).trans
    ((LibKeepdims.shapeCast_a_a1_apply _ shapeCasts_S256_S256x1 p (0 : Fin 1)).trans
      (LibKeepdims.multiReduction_add_last_ab (blockExp S) 0x00000000#32 reduces_S256x2048_S256 (.inl rfl) rfl p))

/-- The softmax along the lanes at (p, n) is the softmax of row p at n. -/
theorem blockSoftmax_apply (S : FVec Ideal S256x2048 .f32) (p : Fin 256) (n : Fin 2048) :
    blockSoftmax S (ix2 p n) = softmaxRow (fun n' => S (ix2 p n')) n := by
  show Ideal.div (blockExp S (ix2 p n)) (blockDenom S (ix2 p n)) = _
  rw [blockDenom_apply, blockExp_apply]
  unfold softmaxRow
  simp only [blockExp_apply]

/-! ## The body's payloads -/

/-- The body's attention block is the lane softmax of the block's scores. -/
theorem pay1_eq (x0 : Vec Ideal S1x256x64 .bf16) (x1 : Vec Ideal S1x2048x64 .bf16) (x3 : Vec Ideal S1x256x2048 .i32) :
    k0_pay1 (F := Ideal) x0 x1 x3 = blockSoftmax (blockScores x0 x1 x3) := rfl

/-- The attention block at (p, n): the softmax of query row p's score row, at key n. -/
theorem pay1_apply (x0 : Vec Ideal S1x256x64 .bf16) (x1 : Vec Ideal S1x2048x64 .bf16) (x3 : Vec Ideal S1x256x2048 .i32)
    (p : Fin 256) (n : Fin 2048) :
    k0_pay1 (F := Ideal) x0 x1 x3 (ix2 p n)
      = softmaxRow (kernelScoreRow (fun d => x0 (ix3 (0 : Fin 1) p d)) (fun n' d => x1 (ix3 (0 : Fin 1) n' d))
          (fun n' => x3 (ix3 (0 : Fin 1) p n'))) n := by
  rw [pay1_eq, blockSoftmax_apply]
  exact congrArg (fun s => softmaxRow s n) (funext fun n' => blockScores_apply x0 x1 x3 p n')

/-- The stored attention block, with its leading unit axis, at (u, p, n). -/
theorem pay2_apply (x0 : Vec Ideal S1x256x64 .bf16) (x1 : Vec Ideal S1x2048x64 .bf16) (x3 : Vec Ideal S1x256x2048 .i32)
    (u : Fin 1) (p : Fin 256) (n : Fin 2048) :
    k0_pay2 (F := Ideal) x0 x1 x3 (ix3 u p n)
      = softmaxRow (kernelScoreRow (fun d => x0 (ix3 (0 : Fin 1) p d)) (fun n' d => x1 (ix3 (0 : Fin 1) n' d))
          (fun n' => x3 (ix3 (0 : Fin 1) p n'))) n :=
  (shapeCast_ab_1ab_apply (k0_pay1 (F := Ideal) x0 x1 x3) shapeCasts_S256x2048_S1x256x2048 u p n).trans (pay1_apply x0 x1 x3 p n)

/-- The stored output block at (u, p, d): query row p's weights times column d of the values. -/
theorem pay3_apply (x0 : Vec Ideal S1x256x64 .bf16) (x1 : Vec Ideal S1x2048x64 .bf16) (x2 : Vec Ideal S1x2048x64 .bf16)
    (x3 : Vec Ideal S1x256x2048 .i32) (u : Fin 1) (p : Fin 256) (d : Fin 64) :
    k0_pay3 (F := Ideal) x0 x1 x2 x3 (ix3 u p d)
      = rowTimes (softmaxRow (kernelScoreRow (fun d' => x0 (ix3 (0 : Fin 1) p d')) (fun n' d' => x1 (ix3 (0 : Fin 1) n' d'))
          (fun n' => x3 (ix3 (0 : Fin 1) p n')))) (fun n' d' => x2 (ix3 (0 : Fin 1) n' d')) d := by
  refine (shapeCast_ab_1ab_apply (matmul dot_S256x2048_S2048x64_S256x64_1_0_0_1_n_n none
      (truncf .bf16 (k0_pay1 (F := Ideal) x0 x1 x3) bitsLt_bf16_f32 : FVec Ideal S256x2048 .bf16)
      (shapeCast S2048x64 x2 shapeCasts_S1x2048x64_S2048x64 : FVec Ideal S2048x64 .bf16) (constant S256x64 .f32 0x00000000#32))
    shapeCasts_S256x64_S1x256x64 u p d).trans ?_
  rw [weightProduct_apply]
  unfold rowTimes
  refine Finset.sum_congr rfl fun n _ => ?_
  have hv : (shapeCast S2048x64 x2 shapeCasts_S1x2048x64_S2048x64 : FVec Ideal S2048x64 .bf16) (ix2 n d) = x2 (ix3 (0 : Fin 1) n d) :=
    shapeCast_1ab_ab_apply x2 shapeCasts_S1x2048x64_S2048x64 n d
  have ha : (truncf .bf16 (k0_pay1 (F := Ideal) x0 x1 x3) bitsLt_bf16_f32 : FVec Ideal S256x2048 .bf16) (ix2 p n)
      = k0_pay1 (F := Ideal) x0 x1 x3 (ix2 p n) := rfl
  rw [hv, ha, pay1_apply]

/-! ## A block's entries against the whole arrays -/

/-- If a block's query row p is row (i 0, i 1) of the queries, its keys batch i 0's keys, and its mask words row
    (i 0, i 1)'s mask bits widened, then the stored attention block at (u, p, n), with n the key i 2, is the attention
    matrix at i. -/
theorem attn_point (X0 : Vec Ideal S1x256x64 .bf16) (X1 : Vec Ideal S1x2048x64 .bf16) (X3 : Vec Ideal S1x256x2048 .i32)
    (q k : SQ.Idx → EReal) (mk : SA.Idx → BitVec 1) (i : SA.Idx) (u : Fin 1) (p : Fin 256) (n : Fin 2048)
    (hq : ∀ d : Fin 64, X0 (ix3 (0 : Fin 1) p d) = q (ix3 (i 0 : Fin 32) (i 1 : Fin 2048) d))
    (hk : ∀ (n' : Fin 2048) (d : Fin 64), X1 (ix3 (0 : Fin 1) n' d) = k (ix3 (i 0 : Fin 32) n' d))
    (hm : ∀ n' : Fin 2048, X3 (ix3 (0 : Fin 1) p n') = (mk (ix3 (i 0 : Fin 32) (i 1 : Fin 2048) n')).setWidth 32)
    (hn : (i 2 : Fin 2048) = n) :
    k0_pay2 (F := Ideal) X0 X1 X3 (ix3 u p n) = attn q k mk i := by
  rw [pay2_apply,
    show (fun d => X0 (ix3 (0 : Fin 1) p d)) = (fun d => q (ix3 (i 0 : Fin 32) (i 1 : Fin 2048) d)) from funext hq,
    show (fun n' d => X1 (ix3 (0 : Fin 1) n' d)) = (fun n' d => k (ix3 (i 0 : Fin 32) n' d)) from funext fun n' => funext (hk n'),
    show (fun n' => X3 (ix3 (0 : Fin 1) p n')) = (fun n' => (mk (ix3 (i 0 : Fin 32) (i 1 : Fin 2048) n')).setWidth 32) from funext hm,
    kernelScoreRow_eq, ← hn]
  rfl

/-- Under the same placement, with the block's values batch i 0's values, the stored output block at (u, p, d), with d
    the feature i 2, is the output at i. -/
theorem out_point (X0 : Vec Ideal S1x256x64 .bf16) (X1 X2 : Vec Ideal S1x2048x64 .bf16) (X3 : Vec Ideal S1x256x2048 .i32)
    (q k v : SQ.Idx → EReal) (mk : SA.Idx → BitVec 1) (i : SQ.Idx) (u : Fin 1) (p : Fin 256) (d : Fin 64)
    (hq : ∀ d' : Fin 64, X0 (ix3 (0 : Fin 1) p d') = q (ix3 (i 0 : Fin 32) (i 1 : Fin 2048) d'))
    (hk : ∀ (n' : Fin 2048) (d' : Fin 64), X1 (ix3 (0 : Fin 1) n' d') = k (ix3 (i 0 : Fin 32) n' d'))
    (hv : ∀ (n' : Fin 2048) (d' : Fin 64), X2 (ix3 (0 : Fin 1) n' d') = v (ix3 (i 0 : Fin 32) n' d'))
    (hm : ∀ n' : Fin 2048, X3 (ix3 (0 : Fin 1) p n') = (mk (ix3 (i 0 : Fin 32) (i 1 : Fin 2048) n')).setWidth 32)
    (hd : (i 2 : Fin 64) = d) :
    k0_pay3 (F := Ideal) X0 X1 X2 X3 (ix3 u p d) = out q k v mk i := by
  rw [pay3_apply,
    show (fun d' => X0 (ix3 (0 : Fin 1) p d')) = (fun d' => q (ix3 (i 0 : Fin 32) (i 1 : Fin 2048) d')) from funext hq,
    show (fun n' d' => X1 (ix3 (0 : Fin 1) n' d')) = (fun n' d' => k (ix3 (i 0 : Fin 32) n' d')) from funext fun n' => funext (hk n'),
    show (fun n' d' => X2 (ix3 (0 : Fin 1) n' d')) = (fun n' d' => v (ix3 (i 0 : Fin 32) n' d')) from funext fun n' => funext (hv n'),
    show (fun n' => X3 (ix3 (0 : Fin 1) p n')) = (fun n' => (mk (ix3 (i 0 : Fin 32) (i 1 : Fin 2048) n')).setWidth 32) from funext hm,
    kernelScoreRow_eq, ← hd]
  rfl

end Cert.KernelIdeal.Point

end
-- ==== Proof.KernelBlocks.lean ====
/-
  From the grid's blocks to the whole arrays: after the run the kernel's attention array is `AttnSpec.attn` and its
  output array `AttnSpec.out` of the argument arrays.

  The grid has 32 × 8 points; point t works on batch t / 8 and on query rows (t % 8)·256 … (t % 8)·256 + 255. Its query
  block and its mask block are those rows of batch t / 8, its key and value blocks are all 2048 rows of batch t / 8, and
  it writes back the same rows of the two results. The arrays the region finds are the arguments themselves as extended
  reals (narrowing a float changes nothing at the exact values) and the mask bits widened to 32-bit words. So what
  point t writes back is block t of the specification, and the 256 blocks cover both results: row r of batch b is in
  the block of point 8·b + r / 256.
-/
import proofs.«162354_j1331439862428_2_alg».proof.Proof.Gen.KernelIdeal.Value
import proofs.«162354_j1331439862428_2_alg».proof.Proof.KernelPoint
import proofs.«162354_j1331439862428_2_alg».proof.Proof.AttnSpec
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.AttnSpec Cert.KernelIdeal.Point

variable (m : (ℓ : Loc nD τ sig) → Buf (Elt Ideal) ℓ) (ρ : Dev nD → PrngReg)

theorem hz : (![0, 0, 0] : Fin 3 → Nat) = fun _ => 0 := funext fun a => by fin_cases a <;> rfl

/-- The index maps over the grid: every window sits at batch t / 8; the query, mask and result windows at row block
    t % 8, the key and value windows at row block 0; every window at column block 0. -/
theorem index_facts : ∀ t : Fin cfg0.N,
      win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

/-! ## The arrays the region finds -/

/-- The queries as the region finds them are the first argument (narrowing is the identity at the exact values). -/
theorem V_q (c : Dev nD) : (V m c main_v0 : S32x2048x64.Idx → EReal) = (m ((c : Thread nD τ).loc main_arg0) : S32x2048x64.Idx → EReal) := by
  dsimp only [Gen.V, Gen.hostOps0]; after_results; rfl
/-- The keys are the second argument. -/
theorem V_k (c : Dev nD) : (V m c main_v1 : S32x2048x64.Idx → EReal) = (m ((c : Thread nD τ).loc main_arg1) : S32x2048x64.Idx → EReal) := by
  dsimp only [Gen.V, Gen.hostOps0]; after_results; rfl
/-- The values are the third argument. -/
theorem V_v (c : Dev nD) : (V m c main_v2 : S32x2048x64.Idx → EReal) = (m ((c : Thread nD τ).loc main_arg2) : S32x2048x64.Idx → EReal) := by
  dsimp only [Gen.V, Gen.hostOps0]; after_results; rfl
/-- The mask words are the fourth argument's bits widened to 32 bits. -/
theorem V_mask (c : Dev nD) : (V m c main_v3 : S32x2048x2048.Idx → BitVec 32)
    = fun i => ((m ((c : Thread nD τ).loc main_arg3) : S32x2048x2048.Idx → BitVec 1) i).setWidth 32 := by
  dsimp only [Gen.V, Gen.hostOps0]; after_results; rfl

/-! ## The input windows' blocks, as rows of the arguments -/

/-- Point t's query block at y is the first argument at batch t / 8, row (t % 8)·256 + y 1, feature y 2. -/
theorem qblock_apply (c : Dev nD) (t : Fin cfg0.N) (y : S1x256x64.Idx) (i : S32x2048x64.Idx)
    (h0 : (i 0).val = t.val / 8) (h1 : (i 1).val = t.val % 8 * 256 + (y 1).val) (h2 : (i 2).val = (y 2).val) :
    (iblk m c 0 t : Vec Ideal S1x256x64 .bf16) y = (m ((c : Thread nD τ).loc main_arg0) : S32x2048x64.Idx → EReal) i := by
  obtain ⟨e0, e1, e2, -⟩ := index_facts t
  have hy0 : (y 0).val < 1 := (y 0).isLt
  unfold iblk
  rw [View.read_apply]
  show V m c main_v0 _ = _
  rw [V_q]
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 64 + 1 * (y 2).val = (i 2).val; omega

/-- Point t's key block at y is the second argument at batch t / 8, row y 1, feature y 2. -/
theorem kblock_apply (c : Dev nD) (t : Fin cfg0.N) (y : S1x2048x64.Idx) (i : S32x2048x64.Idx)
    (h0 : (i 0).val = t.val / 8) (h1 : (i 1).val = (y 1).val) (h2 : (i 2).val = (y 2).val) :
    (iblk m c 1 t : Vec Ideal S1x2048x64 .bf16) y = (m ((c : Thread nD τ).loc main_arg1) : S32x2048x64.Idx → EReal) i := by
  obtain ⟨-, -, -, e0, e1, e2, -⟩ := index_facts t
  have hy0 : (y 0).val < 1 := (y 0).isLt
  unfold iblk
  rw [View.read_apply]
  show V m c main_v1 _ = _
  rw [V_k]
  refine congrArg _ (funext fun a => Fin.ext ?_)
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 64 + 1 * (y 2).val = (i 2).val; omega

/-- Point t's value block at y is the third argument at batch t / 8, row y 1, feature y 2. -/
theorem vblock_apply (c : Dev nD) (t : Fin cfg0.N) (y : S1x2048x64.Idx) (i : S32x2048x64.Idx)
    (h0 : (i 0).val = t.val / 8) (h1 : (i 1).val = (y 1).val) (h2 : (i 2).val = (y 2).val) :
    (iblk m c 2 t : Vec Ideal S1x2048x64 .bf16) y = (m ((c : Thread nD τ).loc main_arg2) : S32x2048x64.Idx → EReal) i := by
  obtain ⟨-, -, -, -, -, -, e0, e1, e2, -⟩ := index_facts t
  have hy0 : (y 0).val < 1 := (y 0).isLt
  unfold iblk
  rw [View.read_apply]
  show V m c main_v2 _ = _
  rw [V_v]
  refine congrArg _ (funext fun a => Fin.ext ?_)
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 64 + 1 * (y 2).val = (i 2).val; omega

/-- Point t's mask block at y is the fourth argument's bit at batch t / 8, row (t % 8)·256 + y 1, key y 2, widened. -/
theorem mblock_apply (c : Dev nD) (t : Fin cfg0.N) (y : S1x256x2048.Idx) (i : S32x2048x2048.Idx)
    (h0 : (i 0).val = t.val / 8) (h1 : (i 1).val = t.val % 8 * 256 + (y 1).val) (h2 : (i 2).val = (y 2).val) :
    (iblk m c 3 t : Vec Ideal S1x256x2048 .i32) y
      = ((m ((c : Thread nD τ).loc main_arg3) : S32x2048x2048.Idx → BitVec 1) i).setWidth 32 := by
  obtain ⟨-, -, -, -, -, -, -, -, -, e0, e1, e2, -⟩ := index_facts t
  have hy0 : (y 0).val < 1 := (y 0).isLt
  unfold iblk
  rw [View.read_apply]
  show V m c main_v3 _ = _
  rw [V_mask]
  show ((m ((c : Thread nD τ).loc main_arg3) : S32x2048x2048.Idx → BitVec 1) _).setWidth 32 = _
  refine congrArg (fun j => ((m ((c : Thread nD τ).loc main_arg3) : S32x2048x2048.Idx → BitVec 1) j).setWidth 32) (funext fun a => Fin.ext ?_)
  match a with
  | ⟨0, _⟩ => show win0_3.index t (0 : Fin 3) * 1 + 1 * (y 0).val = (i 0).val; omega
  | ⟨1, _⟩ => show win0_3.index t (1 : Fin 3) * 256 + 1 * (y 1).val = (i 1).val; omega
  | ⟨2, _⟩ => show win0_3.index t (2 : Fin 3) * 2048 + 1 * (y 2).val = (i 2).val; omega

/-! ## What each point writes back -/

/-- What point t writes back to the attention array is block t of the specification's attention matrix. -/
theorem flushed5_eq (c : Dev nD) (t : Fin cfg0.N) :
    (dats m 0 c).flushed 5 t = ((cfg0.win 5).blk t).view.read (Elt Ideal) (attn (m ((c : Thread nD τ).loc main_arg0)) (m ((c : Thread nD τ).loc main_arg1)) (m ((c : Thread nD τ).loc main_arg3))) := by
  obtain ⟨-, -, -, -, -, -, -, -, -, -, -, -, -, -, -, e0, e1, e2⟩ := index_facts t
  rw [Value.flushed5]
  unfold out0_5
  rw [View.canon_unit_zero hz]
  simp only [View.ld_unit_zero (S := S1x256x64) hz, View.ld_unit_zero (S := S1x2048x64) hz, View.ld_unit_zero (S := S1x256x2048) hz]
  refine funext fun (j : S1x256x2048.Idx) => ?_
  obtain ⟨u, p, n, rfl⟩ : ∃ (u : Fin 1) (p : Fin 256) (n : Fin 2048), j = ix3 u p n := ⟨j 0, j 1, j 2, eq_ix3 j⟩
  have hu : u.val < 1 := u.isLt
  show k0_pay2 (F := Ideal) (iblk m c 0 t) (iblk m c 1 t) (iblk m c 3 t) (ix3 u p n)
    = attn (m ((c : Thread nD τ).loc main_arg0)) (m ((c : Thread nD τ).loc main_arg1)) (m ((c : Thread nD τ).loc main_arg3)) (((cfg0.win 5).blk t).view.emb (ix3 u p n))
  obtain ⟨i, hi⟩ : ∃ i : S32x2048x2048.Idx, i = ((cfg0.win 5).blk t).view.emb (ix3 u p n) := ⟨_, rfl⟩
  have hi0 : (i 0).val = t.val / 8 := by rw [hi]; show win0_5.index t (0 : Fin 3) * 1 + 1 * u.val = _; omega
  have hi1 : (i 1).val = t.val % 8 * 256 + p.val := by rw [hi]; show win0_5.index t (1 : Fin 3) * 256 + 1 * p.val = _; omega
  have hi2 : (i 2).val = n.val := by rw [hi]; show win0_5.index t (2 : Fin 3) * 2048 + 1 * n.val = _; omega
  rw [← hi]
  exact attn_point (iblk m c 0 t) (iblk m c 1 t) (iblk m c 3 t) _ _ _ i u p n
    (fun d => qblock_apply m c t (ix3 (0 : Fin 1) p d) _ hi0 hi1 rfl)
    (fun n' d => kblock_apply m c t (ix3 (0 : Fin 1) n' d) _ hi0 rfl rfl)
    (fun n' => mblock_apply m c t (ix3 (0 : Fin 1) p n') _ hi0 hi1 rfl)
    (Fin.ext hi2)

/-- What point t writes back to the output array is block t of the specification's output. -/
theorem flushed4_eq (c : Dev nD) (t : Fin cfg0.N) :
    (dats m 0 c).flushed 4 t = ((cfg0.win 4).blk t).view.read (Elt Ideal) (out (m ((c : Thread nD τ).loc main_arg0)) (m ((c : Thread nD τ).loc main_arg1)) (m ((c : Thread nD τ).loc main_arg2)) (m ((c : Thread nD τ).loc main_arg3))) := by
  obtain ⟨-, -, -, -, -, -, -, -, -, -, -, -, e0, e1, e2, -⟩ := index_facts t
  rw [Value.flushed4]
  unfold out0_4
  rw [View.canon_unit_zero hz]
  simp only [View.ld_unit_zero (S := S1x256x64) hz, View.ld_unit_zero (S := S1x2048x64) hz, View.ld_unit_zero (S := S1x256x2048) hz]
  refine funext fun (j : S1x256x64.Idx) => ?_
  obtain ⟨u, p, d, rfl⟩ : ∃ (u : Fin 1) (p : Fin 256) (d : Fin 64), j = ix3 u p d := ⟨j 0, j 1, j 2, eq_ix3 j⟩
  have hu : u.val < 1 := u.isLt
  show k0_pay3 (F := Ideal) (iblk m c 0 t) (iblk m c 1 t) (iblk m c 2 t) (iblk m c 3 t) (ix3 u p d)
    = out (m ((c : Thread nD τ).loc main_arg0)) (m ((c : Thread nD τ).loc main_arg1)) (m ((c : Thread nD τ).loc main_arg2)) (m ((c : Thread nD τ).loc main_arg3)) (((cfg0.win 4).blk t).view.emb (ix3 u p d))
  obtain ⟨i, hi⟩ : ∃ i : S32x2048x64.Idx, i = ((cfg0.win 4).blk t).view.emb (ix3 u p d) := ⟨_, rfl⟩
  have hi0 : (i 0).val = t.val / 8 := by rw [hi]; show win0_4.index t (0 : Fin 3) * 1 + 1 * u.val = _; omega
  have hi1 : (i 1).val = t.val % 8 * 256 + p.val := by rw [hi]; show win0_4.index t (1 : Fin 3) * 256 + 1 * p.val = _; omega
  have hi2 : (i 2).val = d.val := by rw [hi]; show win0_4.index t (2 : Fin 3) * 64 + 1 * d.val = _; omega
  rw [← hi]
  exact out_point (iblk m c 0 t) (iblk m c 1 t) (iblk m c 2 t) (iblk m c 3 t) _ _ _ _ i u p d
    (fun d' => qblock_apply m c t (ix3 (0 : Fin 1) p d') _ hi0 hi1 rfl)
    (fun n' d' => kblock_apply m c t (ix3 (0 : Fin 1) n' d') _ hi0 rfl rfl)
    (fun n' d' => vblock_apply m c t (ix3 (0 : Fin 1) n' d') _ hi0 rfl rfl)
    (fun n' => mblock_apply m c t (ix3 (0 : Fin 1) p n') _ hi0 hi1 rfl)
    (Fin.ext hi2)

/-! ## The blocks cover the results -/

/-- An index of the attention array is in point t's block iff each coordinate is in the block's range on its axis. -/
theorem mem_blk5 (t : Fin cfg0.N) (i : S32x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v4_1).slice (win0_5.rect t)).set ↔ _
  rw [View.set_slice_whole, Rect.mem_set_unit]
  exact Iff.rfl

/-- The same for the output array. -/
theorem mem_blk4 (t : Fin cfg0.N) (i : S32x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v4_0).slice (win0_4.rect t)).set ↔ _
  rw [View.set_slice_whole, Rect.mem_set_unit]
  exact Iff.rfl

/-- Every index of the attention array is in the block of the point 8·(batch) + (row / 256). -/
theorem cover5 (i : S32x2048x2048.Idx) : ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 2048 := (i 2).isLt
  have hN : cfg0.N = 256 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, -, -, -, -, -, -, e0, e1, e2⟩ := index_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-- Every index of the output array is in the block of the point 8·(batch) + (row / 256). -/
theorem cover4 (i : S32x2048x64.Idx) : ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 64 := (i 2).isLt
  have hN : cfg0.N = 256 := N_0
  obtain ⟨t, ht⟩ : ∃ t : Fin cfg0.N, t.val = (i 0).val * 8 + (i 1).val / 256 :=
    ⟨⟨(i 0).val * 8 + (i 1).val / 256, by rw [hN]; omega⟩, rfl⟩
  obtain ⟨-, -, -, -, -, -, -, -, -, -, -, -, e0, e1, e2, -⟩ := index_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The arrays after the run -/

/-- The attention array after the run is the specification's attention matrix of the arguments. -/
theorem final5 (c : Dev nD) : (dats m 0 c).arrAt 5 cfg0.N = attn (m ((c : Thread nD τ).loc main_arg0)) (m ((c : Thread nD τ).loc main_arg1)) (m ((c : Thread nD τ).loc main_arg3)) :=
  (dats m 0 c).arrAt_eq_of_cover 5 (attn (m ((c : Thread nD τ).loc main_arg0)) (m ((c : Thread nD τ).loc main_arg1)) (m ((c : Thread nD τ).loc main_arg3))) (fun t _ => flushed5_eq m c t) cover5

/-- The output array after the run is the specification's output of the arguments. -/
theorem final4 (c : Dev nD) : (dats m 0 c).arrAt 4 cfg0.N = out (m ((c : Thread nD τ).loc main_arg0)) (m ((c : Thread nD τ).loc main_arg1)) (m ((c : Thread nD τ).loc main_arg2)) (m ((c : Thread nD τ).loc main_arg3)) :=
  (dats m 0 c).arrAt_eq_of_cover 4 (out (m ((c : Thread nD τ).loc main_arg0)) (m ((c : Thread nD τ).loc main_arg1)) (m ((c : Thread nD τ).loc main_arg2)) (m ((c : Thread nD τ).loc main_arg3))) (fun t _ => flushed4_eq m c t) cover4

/-- The kernel's run: every weakly fair execution terminates with the two results at the specification of the
    arguments, the arguments unchanged. -/
theorem run : θ_run defs (onTc (τ := τ) (main (F := Ideal))) ⟨m, fun _ => 0, ρ⟩ fun r => ∀ c : Dev nD,
      r.2.mem ((c : Thread nD τ).loc main_v4_0) = out (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.LibHostMaxLast3.lean ====
/-
  A host maximum reduction of a rank-3 array along its last axis, at the exact values, read at an index given by
  coordinates — a general module, general in the extents: the result at (i, j) is the fold of `max` from the initial
  value over the entries (i, j, l), l running over the reduced axis.
-/
import Idealize.ShloMosaic.Lib.ValueIdx
import Idealize.ShloMosaic.PureOps.Reduce
import Idealize.ShloMosaic.PureOps.Ideal.Laws

namespace Cert.LibHostMaxLast3

open Idealize.ShloMosaic Idealize.ShloMosaic.ValueIdx

/-- Reducing `[a, b, c]` over its last axis: over `(i, j)`, coordinate `l` on the reduced axis is `(i, j, l)`. -/
theorem lift_last_abc {a b c : ℕ} (h : (⟨3, ![a, b, c]⟩ : Shape).Reduces [2] ⟨2, ![a, b]⟩) (i : Fin a) (j : Fin b) (l : Fin c) :
    h.lift (ix2 i j) l = ix3 i j l := by
  funext ax
  apply Fin.ext
  match ax with
  | ⟨0, _⟩ => rfl
  | ⟨1, _⟩ => rfl
  | ⟨2, _⟩ => rfl

/-- The host's maximum reduction along the last of three axes, at the exact values, read at `(i, j)`. -/
theorem hostReduce_max_last_abc {φ : FTy} {a b c : ℕ} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) (fun l => x (ix3 i j l)) :=
  (Host.reduce_eq_fold_single (FloatOps.maximumf (F := Ideal) (φ := φ)) x init h' h hu (ix2 i j)).trans
    (congrArg (fun f => (Finset.univ : Finset (Fin c)).fold max (init (Shape.Idx.first hu)) f)
      (funext fun l => congrArg x (lift_last_abc h i j l)))

end Cert.LibHostMaxLast3
-- ==== Proof.RefValue.lean ====
/-
  The reference computes the specification: read one operation at a time, its attention matrix is
  `AttnSpec.attn` and its output `AttnSpec.out` of the argument arrays, index by index.

  At (b, r, c) the reference's masked score is the fill value where the mask bit is set and (Σ_d q(b,r,d)·k(b,c,d)) / 8
  elsewhere — the score row of query row (b, r). Its row maximum is the fold of max from −∞ over that row (the extra
  maximum with −∞ that the softmax takes changes nothing), the exponentials and their sum (started from 0) follow entry
  by entry, and the second product sums the weights of row (b, r) against column d of batch b's values.
-/
import proofs.«162354_j1331439862428_2_alg».proof.Proof.Gen.ReferenceIdeal.Read
import proofs.«162354_j1331439862428_2_alg».proof.Proof.AttnSpec
import proofs.«162354_j1331439862428_2_alg».proof.Proof.LibHostMaxLast3
import proofs.«162354_j1331439862428_2_alg».proof.Proof.LibAxisReads

noncomputable section

namespace Cert.ReferenceIdeal.RefValue

open Cert.ReferenceIdeal Cert.ReferenceIdeal.Gen Cert.ReferenceIdeal.Read Idealize.ShloMosaic Idealize.ShloMosaic.ValueIdx
open Cert.AttnSpec

variable (x0 x1 x2 : (⟨S32x2048x64, .f32⟩ : BufTy).Contents (Elt Ideal)) (x3 : (⟨S32x2048x2048, .i1⟩ : BufTy).Contents (Elt Ideal))

/-- Query row (b, r)'s score row, from the reference's arguments. -/
abbrev row (b : Fin 32) (r : Fin 2048) : Fin 2048 → EReal :=
  scoreRow (fun d => x0 (ix3 b r d)) (fun n d => x1 (ix3 b n d)) (fun n => x3 (ix3 b r n))

/-- The masked, scaled score at (b, r, c). -/
theorem score_apply (b : Fin 32) (r c : Fin 2048) :
    val_main_v3 (F := Ideal) x0 x1 x3 (ix3 b r c) = row x0 x1 x3 b r c := by
  rw [val_main_v3_apply, val_main_call0_v1_apply, val_main_call0_v0_apply, val_main_cst_0_apply, val_main_v2_apply,
    val_main_v1_apply, val_main_cst_apply, val_main_v0_apply]
  have el : ∀ k : Fin 64, lidx_main_v0 (ix3 b r c) k = ix3 b r k := fun k => funext fun a => Fin.ext (by
    match a with | ⟨0, _⟩ => rfl | ⟨1, _⟩ => rfl | ⟨2, _⟩ => rfl)
  have er : ∀ k : Fin 64, ridx_main_v0 (ix3 b r c) k = ix3 b c k := fun k => funext fun a => Fin.ext (by
    match a with | ⟨0, _⟩ => rfl | ⟨1, _⟩ => rfl | ⟨2, _⟩ => rfl)
  simp only [el, er]
  rfl

/-- The row maximum the softmax subtracts, at (b, r): the fold of max from −∞ over the score row. -/
theorem rowMax_apply (b : Fin 32) (r : Fin 2048) :
    val_main_v6 (F := Ideal) x0 x1 x3 (ix2 b r)
      = (Finset.univ : Finset (Fin 2048)).fold max (⊥ : EReal) (row x0 x1 x3 b r) := by
  rw [val_main_v6_apply, val_main_v5_apply, val_main_cst_2_apply]
  unfold val_main_v4
  rw [LibHostMaxLast3.hostReduce_max_last_abc _ _ reducesTo_S32x2048x2048_S32x2048_d2 (by decide) h_S_ b r,
    val_main_cst_1_apply]
  show max (Ideal.ofBits .f32 0xFF800000#32) (Finset.fold max (Ideal.ofBits .f32 0xFF800000#32) _ _) = _
  rw [LibAxisReads.ofBits_negInf_f32, max_bot_left]
  exact congrArg (fun f => (Finset.univ : Finset (Fin 2048)).fold max (⊥ : EReal) f)
    (funext fun l => score_apply x0 x1 x3 b r l)

/-- The exponential at (b, r, c). -/
theorem exp_apply (b : Fin 32) (r c : Fin 2048) :
    val_main_v10 (F := Ideal) x0 x1 x3 (ix3 b r c)
      = Ideal.exp (row x0 x1 x3 b r c - (Finset.univ : Finset (Fin 2048)).fold max (⊥ : EReal) (row x0 x1 x3 b r)) := by
  rw [val_main_v10_apply, val_main_v9_apply, val_main_v8_apply, val_main_v7_apply]
  have e : idx_main_v7 (idx_main_v8 (ix3 b r c)) = ix2 b r := funext fun a => Fin.ext (by
    match a with | ⟨0, _⟩ => rfl | ⟨1, _⟩ => rfl)
  rw [e, rowMax_apply, score_apply]
  rfl

/-- The softmax's denominator at (b, r): the sum of the row's exponentials. -/
theorem denom_apply (b : Fin 32) (r : Fin 2048) :
    val_main_v11 (F := Ideal) x0 x1 x3 (ix2 b r)
      = ∑ n : Fin 2048, Ideal.exp (row x0 x1 x3 b r n - (Finset.univ : Finset (Fin 2048)).fold max (⊥ : EReal) (row x0 x1 x3 b r)) := by
  rw [val_main_v11_apply, val_main_cst_3_apply]
  show Ideal.ofBits .f32 0x00000000#32 + _ = _
  rw [Ideal.ofBits_zero_f32, zero_add]
  refine Finset.sum_congr rfl fun n _ => ?_
  have e : idx_main_v11 (ix2 b r) n = ix3 b r n := funext fun a => Fin.ext (by
    match a with | ⟨0, _⟩ => rfl | ⟨1, _⟩ => rfl | ⟨2, _⟩ => rfl)
  rw [e, exp_apply]

/-- The reference's attention matrix is the specification's. -/
theorem attn_eq : val_main_v14 (F := Ideal) x0 x1 x3 = attn x0 x1 x3 := by
  funext i
  obtain ⟨b, r, c, rfl⟩ : ∃ (b : Fin 32) (r c : Fin 2048), i = ix3 b r c := ⟨i 0, i 1, i 2, eq_ix3 i⟩
  rw [val_main_v14_apply, val_main_v13_apply, val_main_v12_apply]
  have e : idx_main_v12 (idx_main_v13 (ix3 b r c)) = ix2 b r := funext fun a => Fin.ext (by
    match a with | ⟨0, _⟩ => rfl | ⟨1, _⟩ => rfl)
  rw [e, denom_apply, exp_apply]
  rfl

/-- The reference's output is the specification's. -/
theorem out_eq : val_main_v15 (F := Ideal) x0 x1 x2 x3 = out x0 x1 x2 x3 := by
  funext i
  obtain ⟨b, r, d, rfl⟩ : ∃ (b : Fin 32) (r : Fin 2048) (d : Fin 64), i = ix3 b r d := ⟨i 0, i 1, i 2, eq_ix3 i⟩
  rw [val_main_v15_apply, attn_eq]
  unfold out rowTimes
  refine Finset.sum_congr rfl fun n _ => ?_
  have el : lidx_main_v15 (ix3 b r d) n = ix3 b r n := funext fun a => Fin.ext (by
    match a with | ⟨0, _⟩ => rfl | ⟨1, _⟩ => rfl | ⟨2, _⟩ => rfl)
  have er : ridx_main_v15 (ix3 b r d) n = ix3 b n d := funext fun a => Fin.ext (by
    match a with | ⟨0, _⟩ => rfl | ⟨1, _⟩ => rfl | ⟨2, _⟩ => rfl)
  rw [el, er]
  rfl

end Cert.ReferenceIdeal.RefValue

end
-- ==== Proof.lean ====
/-
  Masked scaled dot-product attention over f32[32, 2048, 64] queries, keys and values and a boolean mask
  [32, 2048, 2048], returning the output [32, 2048, 64] and the attention matrix [32, 2048, 2048]: a kernel that works on
  256 query rows of one batch per grid point, against the reference written with two einsums and a softmax.

  At the exact values both programs compute, for query row (b, r),
      s c    = fill                              where mask(b, r, c) is set,
               (Σ_d q(b, r, d) · k(b, c, d)) / 8   elsewhere,
      attn(b, r, c) = exp (s c − max s) / Σ_n exp (s n − max s),       out(b, r, d) = Σ_n attn(b, r, n) · v(b, n, d),
  the maximum folded from −∞ (Proof/AttnSpec.lean). The two programs differ only in spelling: the kernel narrows its
  operands before the products (the identity at the exact values), carries the mask as 32-bit words and keeps the score
  where the word is 0 (the reference selects the fill value where the bit is set), multiplies by the dyadic 1/8 where the
  reference divides by 8 (one function on every extended real), and tiles the rows over a 32 × 8 grid (each row's softmax
  sees all 2048 keys in both). No law used needs a finite operand, so the precondition is never opened.

  The kernel's side: Proof/KernelPoint.lean reads the body's two stored blocks at an index; Proof/KernelBlocks.lean
  places each grid point's blocks in the arrays and covers the two results. The reference's side: Proof/RefValue.lean
  reads its run one operation at a time. The frames of the two kernel programs are the generated ones, the reference's
  frame is its generated run with the results dropped, and the idealization rewrote nothing.
-/
import proofs.«162354_j1331439862428_2_alg».proof.Defs
import proofs.«162354_j1331439862428_2_alg».proof.Proof.Gen.Kernel
import proofs.«162354_j1331439862428_2_alg».proof.Proof.Gen.Kernel.Frame
import proofs.«162354_j1331439862428_2_alg».proof.Proof.Gen.KernelIdeal
import proofs.«162354_j1331439862428_2_alg».proof.Proof.Gen.KernelIdeal.Frame
import proofs.«162354_j1331439862428_2_alg».proof.Proof.Gen.KernelIdeal.Value
import proofs.«162354_j1331439862428_2_alg».proof.Proof.Gen.ReferenceIdeal
import proofs.«162354_j1331439862428_2_alg».proof.Proof.Gen.ReferenceIdeal.Run
import proofs.«162354_j1331439862428_2_alg».proof.Proof.Gen.ReferenceIdeal.Read
import proofs.«162354_j1331439862428_2_alg».proof.Proof.Gen.Pre_finite_inputs
import proofs.«162354_j1331439862428_2_alg».proof.Proof.AttnSpec
import proofs.«162354_j1331439862428_2_alg».proof.Proof.KernelBlocks
import proofs.«162354_j1331439862428_2_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the output at `AttnSpec.out` and the attention matrix
    at `AttnSpec.attn` of the arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.out_eq,
      (hagree c).1, (hagree c).2.1, (hagree c).2.2.1, (hagree c).2.2.2]
  · rw [Cert.ReferenceIdeal.Read.val_main_v14_eq, Cert.ReferenceIdeal.RefValue.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
